-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S128x32 .f32) (main_arg7 : FVec F S32 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x32 .f32 := Host.absf main_arg6
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x256 .f32) (main_arg1 : IVec S1600000 32) (main_arg2 : IVec S1600000 32) (main_arg3 : FVec F S1600000 .f32) (main_arg4 : FVec F S256x128 .f32) (main_arg5 : FVec F S128 .f32) (main_arg6 : FVec F S128x32 .f32) (main_arg7 : FVec F S32 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x32 : Shape := ⟨2, ![128, 32]⟩
abbrev S32 : Shape := ⟨1, ![32]⟩
abbrev S1x128 : Shape := ⟨2, ![1, 128]⟩
abbrev S100000x128 : Shape := ⟨2, ![100000, 128]⟩
abbrev S5000x256 : Shape := ⟨2, ![5000, 256]⟩
abbrev S5000x128 : Shape := ⟨2, ![5000, 128]⟩
abbrev S1600000x1 : Shape := ⟨2, ![1600000, 1]⟩
abbrev S_ : Shape := ⟨0, ![]⟩
abbrev S1600000x128 : Shape := ⟨2, ![1600000, 128]⟩
abbrev S1x32 : Shape := ⟨2, ![1, 32]⟩
abbrev S100000x32 : Shape := ⟨2, ![100000, 32]⟩
abbrev S5000x32 : Shape := ⟨2, ![5000, 32]⟩
abbrev S1600000x32 : Shape := ⟨2, ![1600000, 32]⟩

abbrev nBuf : Space → Nat
  | .hbm => 47
  | .vmem => 12
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S1x128, .f32⟩
  | .hbm, ⟨9, _⟩ => ⟨S100000x128, .f32⟩
  | .hbm, ⟨10, _⟩ => ⟨S1600000x1, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S1x32, .f32⟩
  | .hbm, ⟨30, _⟩ => ⟨S100000x32, .f32⟩
  | .hbm, ⟨31, _⟩ => ⟨S1600000x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x32, .f32⟩
  | .hbm, ⟨41, _⟩ => ⟨S1600000x32, .f32⟩
  | .hbm, ⟨42, _⟩ => ⟨S1600000x32, .f32⟩
  | .hbm, ⟨43, _⟩ => ⟨S_, .f32⟩
  | .hbm, ⟨44, _⟩ => ⟨S100000x32, .f32⟩
  | .hbm, ⟨45, _⟩ => ⟨S1600000x1, .i32⟩
  | .hbm, ⟨46, _⟩ => ⟨S100000x32, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x32, .f32⟩
  | .local _ .vmem, ⟨9, _⟩ => ⟨S1x32, .f32⟩
  | .local _ .vmem, ⟨10, _⟩ => ⟨S5000x32, .f32⟩
  | .local _ .vmem, ⟨11, _⟩ => ⟨S5000x32, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_cst : Ref sig .tc := ⟨.hbm, 26, rfl⟩
abbrev main_call0_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S32_S1x32 : S32.ShapeCasts S1x32
  shapeCasts_S5000x128_S5000x128 : S5000x128.ShapeCasts S5000x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x32_S5000x32_1_0_0_1_n_n_wf : DotDims.WF S5000x128 S128x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x32.size a ≤ S128x32.size a
  hwx1_1 : ∀ i : grid1.Coords, EltTy.bits .f32 = 32 ∨ (Rect.block (s := S128x32) S128x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x32 : Shape := ⟨2, ![128, 32]⟩
abbrev S32 : Shape := ⟨1, ![32]⟩
abbrev S100000x128 : Shape := ⟨2, ![100000, 128]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩
abbrev S100000x32 : Shape := ⟨2, ![100000, 32]⟩
abbrev S1x32 : Shape := ⟨2, ![1, 32]⟩
abbrev S1600000x32 : Shape := ⟨2, ![1600000, 32]⟩

abbrev nBuf : Space → Nat
  | .hbm => 51
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x32, .f32⟩
  | .hbm, ⟨32, _⟩ => ⟨S1x32, .f32⟩
  | .hbm, ⟨33, _⟩ => ⟨S100000x32, .f32⟩
  | .hbm, ⟨34, _⟩ => ⟨S100000x32, .f32⟩
  | .hbm, ⟨35, _⟩ => ⟨S1600000x1, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x32, .f32⟩
  | .hbm, ⟨45, _⟩ => ⟨S1600000x32, .f32⟩
  | .hbm, ⟨46, _⟩ => ⟨S1600000x32, .f32⟩
  | .hbm, ⟨47, _⟩ => ⟨S_, .f32⟩
  | .hbm, ⟨48, _⟩ => ⟨S100000x32, .f32⟩
  | .hbm, ⟨49, _⟩ => ⟨S1600000x1, .i32⟩
  | .hbm, ⟨50, _⟩ => ⟨S100000x32, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KernelRun.lean ====
/-
  The idealized kernel program's run, with every buffer it leaves named.

  @main is seven segments: a host stretch, the first linear kernel's region, three host stretches (the aggregation, the
  rectifier, the second bias made a row), the second linear kernel's region, and the last aggregation. The contents of
  the TensorCore's buffers at each boundary are a fold through those segments from the launch memory; the last of them
  is W7. Every weakly fair execution terminates without a fault in a memory that holds, at every buffer the program
  does not scope, exactly W7's contents: so any property of the final memory that follows from those contents holds
  of every execution. The frame claim uses this for the eight argument arrays; the value claim uses it for the result.
-/
import proofs.«150892_j24644522345229_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from memory m terminates, nothing faulting, in a memory that has W7's contents
    at every unscoped buffer of every core; hence it satisfies any Q those contents imply. -/
theorem run_ends {Q : PUnit × MemSt nD τ sig (Elt F) → Prop}
    (hQ : ∀ s : MemSt nD τ sig (Elt F),
      (∀ c : Dev nD, ∀ b ∈ Pipeline.ucRefs τ sig, s.mem (((c : Thread nD τ)).1, b) = W7 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := hQ)

/-- The run with the result array and the eight arguments read off: the result holds W7's contents at its buffer, each
    argument what it held at launch (no segment writes an argument). -/
theorem run_result : θ_run defs (onTc (τ := τ) (main (F := F))) ⟨m, fun _ => 0, ρ⟩ (fun r => ∀ c : Dev nD,
      r.2.mem ((c.tc : Thread nD τ).loc main_v30) = W7 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_ends m ρ fun s h c =>
    ⟨h c _ (mem_uc main_v30 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c)⟩

end Cert.KernelIdeal.Whole

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibLinearLayer.lean ====
/-
  A linear layer read at an index, at the ideal values.

  For a matrix x (m rows, k columns), a weight matrix W (k rows, n columns) and a bias row β, the layer's value at row a
  and column q is (∑ c, x(a, c) · W(c, q)) + β(q). Two spellings of it are read here and shown to be this one function:
  the product of the two matrices rounded to a narrower format (which, at the ideal values, changes nothing) into a
  zero accumulator, plus the bias row broadcast over the rows; and the host's product of the two matrices plus the bias
  vector broadcast twice, first to one row and then over the rows. A block of consecutive rows of the layer's value is
  the layer applied to the same rows of x.
-/
import Idealize.ShloMosaic.PureOps.Ideal.Laws
import Idealize.ShloMosaic.Lib.ValueIdx
import Idealize.ShloMosaic.Lib.ValueLayout
import Idealize.ShloMosaic.Lib.StackMember
import proofs.«150892_j24644522345229_1_alg».proof.Proof.LibMatmulPlain

noncomputable section

namespace Cert.LibLinearLayer

open Idealize.ShloMosaic Idealize.ShloMosaic.ValueIdx

variable {m k n : Nat}

/-- The linear layer: at row a and column q, the sum over c of x(a, c) · W(c, q), plus the bias at column q. -/
def lin (x : FVec Ideal ⟨2, ![m, k]⟩ .f32) (W : FVec Ideal ⟨2, ![k, n]⟩ .f32) (β : Fin n → EReal) :
    FVec Ideal ⟨2, ![m, n]⟩ .f32 :=
  fun i => (∑ c : Fin k, x (ix2 (show Fin m from i 0) c) * W (ix2 c (show Fin n from i 1))) + β (show Fin n from i 1)

theorem lin_apply (x : FVec Ideal ⟨2, ![m, k]⟩ .f32) (W : FVec Ideal ⟨2, ![k, n]⟩ .f32) (β : Fin n → EReal)
    (a : Fin m) (q : Fin n) :
    lin x W β (ix2 a q) = (∑ c : Fin k, x (ix2 a c) * W (ix2 c q)) + β q := rfl

/-- The kernel's spelling: both operands rounded to bf16 (the identity at the ideal values), multiplied into a zero
    accumulator, and the one bias row broadcast over the rows and added. -/
theorem body_eq_lin (D : DotDims ⟨2, ![m, k]⟩ ⟨2, ![k, n]⟩ ⟨2, ![m, n]⟩) (hD : D = DotDims.plain m k n)
    (hbits : FTy.bits .bf16 < FTy.bits .f32)
    (hb : (⟨2, ![1, n]⟩ : Shape).Broadcasts ⟨2, ![m, n]⟩)
    (A : FVec Ideal ⟨2, ![m, k]⟩ .f32) (B : FVec Ideal ⟨2, ![k, n]⟩ .f32) (bias : FVec Ideal ⟨2, ![1, n]⟩ .f32) :
    addf (matmul D none (truncf .bf16 A hbits) (truncf .bf16 B hbits) (constant (F := Ideal) ⟨2, ![m, n]⟩ .f32 0x00000000#32))
        (broadcastTo ⟨2, ![m, n]⟩ bias hb)
      = lin A B (fun q => bias (ix2 (0 : Fin 1) q)) := by
  subst hD
  funext j
  obtain ⟨a, q, rfl⟩ : ∃ (a : Fin m) (q : Fin n), j = ix2 a q := ⟨j 0, j 1, eq_ix2 j⟩
  rw [lin_apply, addf_apply, Cert.LibMatmulPlain.matmul_plain_zero_apply, broadcastTo_1b_ab_apply]
  rfl

/-- The host's spelling: the product of the two matrices, plus the bias vector made a row and then broadcast over the
    rows. -/
theorem host_eq_lin (D : DotDims ⟨2, ![m, k]⟩ ⟨2, ![k, n]⟩ ⟨2, ![m, n]⟩) (hD : D = DotDims.plain m k n)
    (h1 : (⟨1, ![n]⟩ : Shape).BroadcastsInDim ⟨2, ![1, n]⟩ ![1])
    (h2 : (⟨2, ![1, n]⟩ : Shape).BroadcastsInDim ⟨2, ![m, n]⟩ ![0, 1])
    (x : FVec Ideal ⟨2, ![m, k]⟩ .f32) (W : FVec Ideal ⟨2, ![k, n]⟩ .f32) (b : FVec Ideal ⟨1, ![n]⟩ .f32) :
    addf (Host.dotGeneral D none x W)
        (broadcastInDim ⟨2, ![m, n]⟩ ![0, 1] h2 (broadcastInDim ⟨2, ![1, n]⟩ ![1] h1 b))
      = lin x W (fun q => b (ix1 q)) := by
  subst hD
  funext j
  obtain ⟨a, q, rfl⟩ : ∃ (a : Fin m) (q : Fin n), j = ix2 a q := ⟨j 0, j 1, eq_ix2 j⟩
  rw [lin_apply, addf_apply, StackMember.dotGeneral_plain_apply]
  congr 1
  rw [broadcastInDim_apply ![0, 1] h2 _ (ix2 a q) (ix2 (0 : Fin 1) q) (fun ax => by
    match ax with
    | ⟨0, _⟩ => show (0 : Nat) = if (1 : Nat) = 1 then 0 else a.val; rw [if_pos rfl]
    | ⟨1, _⟩ =>
      show q.val = if n = 1 then 0 else q.val
      split
      · have := q.isLt; omega
      · rfl)]
  exact broadcastInDim_apply ![1] h1 b (ix2 (0 : Fin 1) q) (ix1 q) (fun ax => by
    match ax with
    | ⟨0, _⟩ =>
      show q.val = if n = 1 then 0 else q.val
      split
      · have := q.isLt; omega
      · rfl)

/-- Rows T·r … T·r + r − 1 of the layer's value are the layer applied to the same rows of x: if a block xb of r rows
    holds those rows of x, the layer of the block at (a, q) is the layer of x at (T·r + a, q). -/
theorem lin_rows {M r : Nat} (X : FVec Ideal ⟨2, ![M, k]⟩ .f32) (xb : FVec Ideal ⟨2, ![r, k]⟩ .f32)
    (W : FVec Ideal ⟨2, ![k, n]⟩ .f32) (β : Fin n → EReal) (a : Fin r) (A : Fin M) (q : Fin n)
    (hx : ∀ c : Fin k, xb (ix2 a c) = X (ix2 A c)) :
    lin xb W β (ix2 a q) = lin X W β (ix2 A q) := by
  rw [lin_apply, lin_apply]
  congr 1
  exact Finset.sum_congr rfl fun c _ => by rw [hx c]

end Cert.LibLinearLayer

end
-- ==== Proof.Network.lean ====
/-
  The two-layer graph network as one function of its arguments, and the reference's run read as that function.

  With A the sparse matrix given by its entries (row, column, value), a layer's aggregation of an array h is
  A · h: gather the rows of h named by the columns, scale each by its value, and add each into the row it names.
  The network is  A · lin(relu(A · lin(x, W1, b1)), W2, b2),  where lin is the linear layer of LibLinearLayer.
  The aggregation and the rectifier are carried as whole functions and never opened: both programs apply the same
  host operations there. Only the two linear layers are spelt differently by the two programs, and here the
  reference's spelling (the host's matrix product plus the bias broadcast twice) is read as lin.
-/
import proofs.«150892_j24644522345229_1_alg».proof.Proof.Gen.ReferenceIdeal.Run
import proofs.«150892_j24644522345229_1_alg».proof.Proof.LibLinearLayer

noncomputable section

namespace Cert.Network

open Cert.ReferenceIdeal Cert.ReferenceIdeal.Gen Idealize.ShloMosaic Idealize.ShloMosaic.ValueIdx Cert.LibLinearLayer

/-- A column index below zero counts from the end: the host's normalisation of the gather's indices. -/
def wrapCols (cl : (⟨S1600000, .i32⟩ : BufTy).Contents (Elt Ideal)) : (⟨S1600000x1, .i32⟩ : BufTy).Contents (Elt Ideal) :=
  broadcastInDim S1600000x1 ![0] bcast_S1600000_S1600000x1_0
    (select (cmpi .slt cl (broadcastInDim S1600000 ![] bcast_S_S1600000 (constantI S_ 32 0#32)))
      (addi cl (broadcastInDim S1600000 ![] bcast_S_S1600000 (constantI S_ 32 100000#32))) cl)

/-- A · h for h of 128 columns: gather, scale, scatter-add into zeros. -/
def agg128 (r cl : (⟨S1600000, .i32⟩ : BufTy).Contents (Elt Ideal)) (v : (⟨S1600000, .f32⟩ : BufTy).Contents (Elt Ideal))
    (h : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 r)
    (mulf (broadcastInDim S1600000x128 ![0, 1] bcast_S1600000x1_S1600000x128_0_1 (broadcastInDim S1600000x1 ![0] bcast_S1600000_S1600000x1_0 v))
      (Host.gather gather_S100000x128_S1600000x1_S1600000x128_1_0_n_n_0_1_1128 h (wrapCols cl)))

/-- A · h for h of 32 columns. -/
def agg32 (r cl : (⟨S1600000, .i32⟩ : BufTy).Contents (Elt Ideal)) (v : (⟨S1600000, .f32⟩ : BufTy).Contents (Elt Ideal))
    (h : FVec Ideal S100000x32 .f32) : FVec Ideal S100000x32 .f32 :=
  Host.scatterAdd (F := Ideal) scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 r)
    (mulf (broadcastInDim S1600000x32 ![0, 1] bcast_S1600000x1_S1600000x32_0_1 (broadcastInDim S1600000x1 ![0] bcast_S1600000_S1600000x1_0 v))
      (Host.gather gather_S100000x32_S1600000x1_S1600000x32_1_0_n_n_0_1_132 h (wrapCols cl)))

/-- The rectifier: the larger of each entry and zero. -/
def relu128 (h : FVec Ideal S100000x128 .f32) : FVec Ideal S100000x128 .f32 :=
  maximumf h (broadcastInDim S100000x128 ![] bcast_S_S100000x128 (constant (F := Ideal) S_ .f32 0x00000000#32))

/-- The network: A · lin(relu(A · lin(x, W1, b1)), W2, b2). -/
def gcn (x : FVec Ideal S100000x256 .f32) (r cl : (⟨S1600000, .i32⟩ : BufTy).Contents (Elt Ideal))
    (v : (⟨S1600000, .f32⟩ : BufTy).Contents (Elt Ideal)) (W1 : FVec Ideal S256x128 .f32) (b1 : FVec Ideal S128 .f32)
    (W2 : FVec Ideal S128x32 .f32) (b2 : FVec Ideal S32 .f32) : FVec Ideal S100000x32 .f32 :=
  agg32 r cl v (lin (relu128 (agg128 r cl v (lin x W1 (fun q => b1 (ix1 q))))) W2 (fun q => b2 (ix1 q)))

/-- The reference's first layer, as the host spells it, is lin. -/
theorem layer1_host (x : FVec Ideal S100000x256 .f32) (W : FVec Ideal S256x128 .f32) (b : FVec Ideal S128 .f32) :
    addf (Host.dotGeneral (F := Ideal) dot_S100000x256_S256x128_S100000x128_1_0_0_1_n_n none x W)
        (broadcastInDim S100000x128 ![0, 1] bcast_S1x128_S100000x128_0_1 (broadcastInDim S1x128 ![1] bcast_S128_S1x128_1 b))
      = lin x W (fun q => b (ix1 q)) :=
  host_eq_lin _ rfl _ _ x W b

/-- The reference's second layer, as the host spells it, is lin. -/
theorem layer2_host (x : FVec Ideal S100000x128 .f32) (W : FVec Ideal S128x32 .f32) (b : FVec Ideal S32 .f32) :
    addf (Host.dotGeneral (F := Ideal) dot_S100000x128_S128x32_S100000x32_1_0_0_1_n_n none x W)
        (broadcastInDim S100000x32 ![0, 1] bcast_S1x32_S100000x32_0_1 (broadcastInDim S1x32 ![1] bcast_S32_S1x32_1 b))
      = lin x W (fun q => b (ix1 q)) :=
  host_eq_lin _ rfl _ _ x W b

/-- The term the reference's run ends at, over any argument arrays, is the network. -/
theorem ref_eq (x : FVec Ideal S100000x256 .f32) (r cl : (⟨S1600000, .i32⟩ : BufTy).Contents (Elt Ideal))
    (v : (⟨S1600000, .f32⟩ : BufTy).Contents (Elt Ideal)) (W1 : FVec Ideal S256x128 .f32) (b1 : FVec Ideal S128 .f32)
    (W2 : FVec Ideal S128x32 .f32) (b2 : FVec Ideal S32 .f32) :
    Host.scatterAdd (F := Ideal) scatter_S100000x32_S1600000x1_S1600000x32_1_0_0_1 (broadcastInDim S100000x32 ![] bcast_S_S100000x32 (constant (F := Ideal) S_ .f32 0x00000000#32)) (broadcastInDim S1600000x1 ![0] bcast_S1600000_S1600000x1_0 r) (mulf (broadcastInDim S1600000x32 ![0, 1] bcast_S1600000x1_S1600000x32_0_1 (broadcastInDim S1600000x1 ![0] bcast_S1600000_S1600000x1_0 v)) (Host.gather gather_S100000x32_S1600000x1_S1600000x32_1_0_n_n_0_1_132 (addf (Host.dotGeneral (F := Ideal) dot_S100000x128_S128x32_S100000x32_1_0_0_1_n_n none (maximumf (Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 r) (mulf (broadcastInDim S1600000x128 ![0, 1] bcast_S1600000x1_S1600000x128_0_1 (broadcastInDim S1600000x1 ![0] bcast_S1600000_S1600000x1_0 v)) (Host.gather gather_S100000x128_S1600000x1_S1600000x128_1_0_n_n_0_1_1128 (addf (Host.dotGeneral (F := Ideal) dot_S100000x256_S256x128_S100000x128_1_0_0_1_n_n none x W1) (broadcastInDim S100000x128 ![0, 1] bcast_S1x128_S100000x128_0_1 (broadcastInDim S1x128 ![1] bcast_S128_S1x128_1 b1))) (broadcastInDim S1600000x1 ![0] bcast_S1600000_S1600000x1_0 (select (cmpi .slt cl (broadcastInDim S1600000 ![] bcast_S_S1600000 (constantI S_ 32 0#32))) (addi cl (broadcastInDim S1600000 ![] bcast_S_S1600000 (constantI S_ 32 100000#32))) cl))))) (broadcastInDim S100000x128 ![] bcast_S_S100000x128 (constant (F := Ideal) S_ .f32 0x00000000#32))) W2) (broadcastInDim S100000x32 ![0, 1] bcast_S1x32_S100000x32_0_1 (broadcastInDim S1x32 ![1] bcast_S32_S1x32_1 b2))) (broadcastInDim S1600000x1 ![0] bcast_S1600000_S1600000x1_0 (select (cmpi .slt cl (broadcastInDim S1600000 ![] bcast_S_S1600000 (constantI S_ 32 0#32))) (addi cl (broadcastInDim S1600000 ![] bcast_S_S1600000 (constantI S_ 32 100000#32))) cl))))
      = gcn x r cl v W1 b1 W2 b2 := by
  rw [layer1_host, layer2_host]
  rfl

end Cert.Network

end
-- ==== Proof.Layer0Value.lean ====
/-
  What the first linear kernel leaves in its result array, whatever the arrays it is entered with.

  The grid has 20 points. At point t the kernel is given rows 5000·t … 5000·t + 4999 of its first operand, the whole
  weight matrix and the whole one-row bias, and stores the linear layer of that block of rows; the write-back puts the
  block at the same rows of the result array. The twenty blocks tile the array's 100000 rows, so the array ends
  holding the linear layer of the whole first operand.
-/
import proofs.«150892_j24644522345229_1_alg».proof.Proof.Gen.KernelIdeal.Frame
import proofs.«150892_j24644522345229_1_alg».proof.Proof.LibLinearLayer
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Layer0

open Cert.KernelIdeal Cert.KernelIdeal.Gen Cert.LibLinearLayer

variable (V : (c : Dev nD) → (b : Ref sig .tc) → Buf (Elt Ideal) ((c : Thread nD τ).loc b))

theorem hz : (![0, 0] : Fin 2 → Nat) = fun _ => 0 := funext fun a => by fin_cases a <;> rfl

/-- What one point stores: the linear layer of its block of rows, with the whole weight matrix and the bias row. -/
theorem stored_eq (x0 : Vec Ideal S5000x256 .f32) (x1 : Vec Ideal S256x128 .f32) (x2 : Vec Ideal S1x128 .f32) :
    out0_3 x0 x1 x2 = lin x0 x1 (fun q => x2 (ix2 (0 : Fin 1) q)) := by
  unfold out0_3
  rw [View.canon_unit_zero hz]
  simp only [View.ld_unit_zero (S := S5000x256) hz, View.ld_unit_zero (S := S256x128) hz, View.ld_unit_zero (S := S1x128) hz]
  unfold k0_pay1
  simp only [shapeCast_self]
  exact body_eq_lin _ rfl _ _ x0 x1 x2

/-- The block indices over the grid: the first operand's and the result's blocks move down the rows with the point,
    the weight matrix and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first operand's block at point t is rows 5000·t … of its array. -/
theorem rows_block (c : Dev nD) (t : Fin cfg0.N) (a : Fin 5000) (cc : Fin 256) (A : Fin 100000)
    (hA : A.val = 5000 * t.val + a.val) :
    (iblk0 V c 0 t : Vec Ideal S5000x256 .f32) (ix2 a cc) = (V c main_arg0 : FVec Ideal S100000x256 .f32) (ix2 A cc) := by
  obtain ⟨e0, e1, -⟩ := idx_facts t
  unfold iblk0
  rw [View.read_apply]
  show V c main_arg0 _ = V c main_arg0 _
  refine congrArg _ (funext fun ax => Fin.ext ?_)
  match ax with
  | ⟨0, _⟩ => show win0_0.index t (0 : Fin 2) * 5000 + 1 * a.val = A.val; rw [e0, hA]; omega
  | ⟨1, _⟩ => show win0_0.index t (1 : Fin 2) * 256 + 1 * cc.val = cc.val; rw [e1]; omega

/-- The weight matrix's block at every point is the whole matrix. -/
theorem weight_block (c : Dev nD) (t : Fin cfg0.N) :
    (iblk0 V c 1 t : Vec Ideal S256x128 .f32) = (V c main_arg4 : FVec Ideal S256x128 .f32) := by
  obtain ⟨-, -, e0, e1, -⟩ := idx_facts t
  funext j
  unfold iblk0
  rw [View.read_apply]
  show V c main_arg4 _ = V c main_arg4 _
  refine congrArg _ (funext fun ax => Fin.ext ?_)
  match ax with
  | ⟨0, _⟩ => show win0_1.index t (0 : Fin 2) * 256 + 1 * (j 0).val = (j 0).val; rw [e0]; omega
  | ⟨1, _⟩ => show win0_1.index t (1 : Fin 2) * 128 + 1 * (j 1).val = (j 1).val; rw [e1]; omega

/-- The bias row's block at every point is the whole row. -/
theorem bias_block (c : Dev nD) (t : Fin cfg0.N) :
    (iblk0 V c 2 t : Vec Ideal S1x128 .f32) = (V c main_v0 : FVec Ideal S1x128 .f32) := by
  obtain ⟨-, -, -, -, e0, e1, -⟩ := idx_facts t
  funext j
  unfold iblk0
  rw [View.read_apply]
  show V c main_v0 _ = V c main_v0 _
  refine congrArg _ (funext fun ax => Fin.ext ?_)
  match ax with
  | ⟨0, _⟩ => show win0_2.index t (0 : Fin 2) * 1 + 1 * (j 0).val = (j 0).val; rw [e0]; omega
  | ⟨1, _⟩ => show win0_2.index t (1 : Fin 2) * 128 + 1 * (j 1).val = (j 1).val; rw [e1]; omega

/-- The layer of the whole first operand as the region finds its arrays. -/
def layer (c : Dev nD) : FVec Ideal S100000x128 .f32 :=
  lin (V c main_arg0 : FVec Ideal S100000x256 .f32) (V c main_arg4 : FVec Ideal S256x128 .f32)
    (fun q => (V c main_v0 : FVec Ideal S1x128 .f32) (ix2 (0 : Fin 1) q))

/-- What point t stores, at row a of its block, is the layer of the whole operand at row 5000·t + a. -/
theorem stored_row (c : Dev nD) (t : Fin cfg0.N) (a : Fin 5000) (q : Fin 128) (A : Fin 100000)
    (hA : A.val = 5000 * t.val + a.val) :
    out0_3 (iblk0 V c 0 t) (iblk0 V c 1 t) (iblk0 V c 2 t) (ix2 a q) = layer V c (ix2 A q) := by
  rw [stored_eq, weight_block V c t, bias_block V c t]
  exact lin_rows _ _ _ _ a A q fun cc => rows_block V c t a cc A hA

/-- What point t writes back is its block of the layer. -/
theorem flushed_eq (c : Dev nD) (t : Fin cfg0.N) :
    (dat0 V c).flushed 3 t = ((cfg0.win 3).blk t).view.read (Elt Ideal) (layer V c) := by
  obtain ⟨-, -, -, -, -, -, e0, e1⟩ := idx_facts t
  show (cfg0.win 3).cut (grid0.coords t) ((dat0 V c).after 3 t) = _
  rw [after0_3]
  show (fun j : S5000x128.Idx => out0_3 (iblk0 V c 0 t) (iblk0 V c 1 t) (iblk0 V c 2 t) j)
    = fun j : S5000x128.Idx => layer V c (((cfg0.win 3).blk t).view.emb j)
  funext j
  obtain ⟨a, q, rfl⟩ : ∃ (a : Fin 5000) (q : Fin 128), j = ix2 a q := ⟨j 0, j 1, eq_ix2 j⟩
  have ht : t.val < 20 := by have h := t.isLt; have hN : cfg0.N = 20 := N_0; omega
  have hlt : 5000 * t.val + a.val < 100000 := by have := a.isLt; omega
  rw [stored_row V c t a q ⟨5000 * t.val + a.val, hlt⟩ rfl]
  refine congrArg _ (funext fun ax => Fin.ext ?_)
  match ax with
  | ⟨0, _⟩ => show 5000 * t.val + a.val = win0_3.index t (0 : Fin 2) * 5000 + 1 * a.val; rw [e0]; omega
  | ⟨1, _⟩ => show q.val = win0_3.index t (1 : Fin 2) * 128 + 1 * q.val; rw [e1]; omega

/-- An index of the result array is in point t's block iff each coordinate is in the block's range. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- The result array after the region: the layer of the whole first operand (row r is written by point r / 5000). -/
theorem final (c : Dev nD) : (dat0 V c).arrAt 3 cfg0.N = layer V c :=
  (dat0 V c).arrAt_eq_of_cover 3 (layer V c) (fun t _ => flushed_eq V c t) fun i => by
    have hi0 : (i 0).val < 100000 := (i 0).isLt
    have hi1 : (i 1).val < 128 := (i 1).isLt
    have hN : cfg0.N = 20 := N_0
    refine ⟨⟨(i 0).val / 5000, by rw [hN]; omega⟩, flush0_3 _, ?_⟩
    rw [mem_blk]
    obtain ⟨-, -, -, -, -, -, e0, e1⟩ := idx_facts ⟨(i 0).val / 5000, by rw [hN]; omega⟩
    intro a
    match a with
    | ⟨0, _⟩ =>
      show win0_3.index _ (0 : Fin 2) * 5000 ≤ (i 0).val ∧ (i 0).val < win0_3.index _ (0 : Fin 2) * 5000 + 5000
      rw [e0]; show (i 0).val / 5000 * 5000 ≤ (i 0).val ∧ (i 0).val < (i 0).val / 5000 * 5000 + 5000; omega
    | ⟨1, _⟩ =>
      show win0_3.index _ (1 : Fin 2) * 128 ≤ (i 1).val ∧ (i 1).val < win0_3.index _ (1 : Fin 2) * 128 + 128
      rw [e1]; omega

end Cert.KernelIdeal.Layer0

end
-- ==== Proof.Layer1Value.lean ====
/-
  What the second linear kernel leaves in its result array, whatever the arrays it is entered with.

  The grid has 20 points. At point t the kernel is given rows 5000·t … 5000·t + 4999 of its first operand, the whole
  weight matrix and the whole one-row bias, and stores the linear layer of that block of rows; the write-back puts the
  block at the same rows of the result array. The twenty blocks tile the array's 100000 rows, so the array ends
  holding the linear layer of the whole first operand.
-/
import proofs.«150892_j24644522345229_1_alg».proof.Proof.Gen.KernelIdeal.Frame
import proofs.«150892_j24644522345229_1_alg».proof.Proof.LibLinearLayer
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.LibLinearLayer

variable (V : (c : Dev nD) → (b : Ref sig .tc) → Buf (Elt Ideal) ((c : Thread nD τ).loc b))

theorem hz : (![0, 0] : Fin 2 → Nat) = fun _ => 0 := funext fun a => by fin_cases a <;> rfl

/-- What one point stores: the linear layer of its block of rows, with the whole weight matrix and the bias row. -/
theorem stored_eq (x0 : Vec Ideal S5000x128 .f32) (x1 : Vec Ideal S128x32 .f32) (x2 : Vec Ideal S1x32 .f32) :
    out1_3 x0 x1 x2 = lin x0 x1 (fun q => x2 (ix2 (0 : Fin 1) q)) := by
  unfold out1_3
  rw [View.canon_unit_zero hz]
  simp only [View.ld_unit_zero (S := S5000x128) hz, View.ld_unit_zero (S := S128x32) hz, View.ld_unit_zero (S := S1x32) hz]
  unfold k1_pay1
  simp only [shapeCast_self]
  exact body_eq_lin _ rfl _ _ x0 x1 x2

/-- The block indices over the grid: the first operand's and the result's blocks move down the rows with the point,
    the weight matrix and the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The first operand's block at point t is rows 5000·t … of its array. -/
theorem rows_block (c : Dev nD) (t : Fin cfg1.N) (a : Fin 5000) (cc : Fin 128) (A : Fin 100000)
    (hA : A.val = 5000 * t.val + a.val) :
    (iblk1 V c 0 t : Vec Ideal S5000x128 .f32) (ix2 a cc) = (V c main_v15 : FVec Ideal S100000x128 .f32) (ix2 A cc) := by
  obtain ⟨e0, e1, -⟩ := idx_facts t
  unfold iblk1
  rw [View.read_apply]
  show V c main_v15 _ = V c main_v15 _
  refine congrArg _ (funext fun ax => Fin.ext ?_)
  match ax with
  | ⟨0, _⟩ => show win1_0.index t (0 : Fin 2) * 5000 + 1 * a.val = A.val; rw [e0, hA]; omega
  | ⟨1, _⟩ => show win1_0.index t (1 : Fin 2) * 128 + 1 * cc.val = cc.val; rw [e1]; omega

/-- The weight matrix's block at every point is the whole matrix. -/
theorem weight_block (c : Dev nD) (t : Fin cfg1.N) :
    (iblk1 V c 1 t : Vec Ideal S128x32 .f32) = (V c main_arg6 : FVec Ideal S128x32 .f32) := by
  obtain ⟨-, -, e0, e1, -⟩ := idx_facts t
  funext j
  unfold iblk1
  rw [View.read_apply]
  show V c main_arg6 _ = V c main_arg6 _
  refine congrArg _ (funext fun ax => Fin.ext ?_)
  match ax with
  | ⟨0, _⟩ => show win1_1.index t (0 : Fin 2) * 128 + 1 * (j 0).val = (j 0).val; rw [e0]; omega
  | ⟨1, _⟩ => show win1_1.index t (1 : Fin 2) * 32 + 1 * (j 1).val = (j 1).val; rw [e1]; omega

/-- The bias row's block at every point is the whole row. -/
theorem bias_block (c : Dev nD) (t : Fin cfg1.N) :
    (iblk1 V c 2 t : Vec Ideal S1x32 .f32) = (V c main_v16 : FVec Ideal S1x32 .f32) := by
  obtain ⟨-, -, -, -, e0, e1, -⟩ := idx_facts t
  funext j
  unfold iblk1
  rw [View.read_apply]
  show V c main_v16 _ = V c main_v16 _
  refine congrArg _ (funext fun ax => Fin.ext ?_)
  match ax with
  | ⟨0, _⟩ => show win1_2.index t (0 : Fin 2) * 1 + 1 * (j 0).val = (j 0).val; rw [e0]; omega
  | ⟨1, _⟩ => show win1_2.index t (1 : Fin 2) * 32 + 1 * (j 1).val = (j 1).val; rw [e1]; omega

/-- The layer of the whole first operand as the region finds its arrays. -/
def layer (c : Dev nD) : FVec Ideal S100000x32 .f32 :=
  lin (V c main_v15 : FVec Ideal S100000x128 .f32) (V c main_arg6 : FVec Ideal S128x32 .f32)
    (fun q => (V c main_v16 : FVec Ideal S1x32 .f32) (ix2 (0 : Fin 1) q))

/-- What point t stores, at row a of its block, is the layer of the whole operand at row 5000·t + a. -/
theorem stored_row (c : Dev nD) (t : Fin cfg1.N) (a : Fin 5000) (q : Fin 32) (A : Fin 100000)
    (hA : A.val = 5000 * t.val + a.val) :
    out1_3 (iblk1 V c 0 t) (iblk1 V c 1 t) (iblk1 V c 2 t) (ix2 a q) = layer V c (ix2 A q) := by
  rw [stored_eq, weight_block V c t, bias_block V c t]
  exact lin_rows _ _ _ _ a A q fun cc => rows_block V c t a cc A hA

/-- What point t writes back is its block of the layer. -/
theorem flushed_eq (c : Dev nD) (t : Fin cfg1.N) :
    (dat1 V c).flushed 3 t = ((cfg1.win 3).blk t).view.read (Elt Ideal) (layer V c) := by
  obtain ⟨-, -, -, -, -, -, e0, e1⟩ := idx_facts t
  show (cfg1.win 3).cut (grid1.coords t) ((dat1 V c).after 3 t) = _
  rw [after1_3]
  show (fun j : S5000x32.Idx => out1_3 (iblk1 V c 0 t) (iblk1 V c 1 t) (iblk1 V c 2 t) j)
    = fun j : S5000x32.Idx => layer V c (((cfg1.win 3).blk t).view.emb j)
  funext j
  obtain ⟨a, q, rfl⟩ : ∃ (a : Fin 5000) (q : Fin 32), j = ix2 a q := ⟨j 0, j 1, eq_ix2 j⟩
  have ht : t.val < 20 := by have h := t.isLt; have hN : cfg1.N = 20 := N_1; omega
  have hlt : 5000 * t.val + a.val < 100000 := by have := a.isLt; omega
  rw [stored_row V c t a q ⟨5000 * t.val + a.val, hlt⟩ rfl]
  refine congrArg _ (funext fun ax => Fin.ext ?_)
  match ax with
  | ⟨0, _⟩ => show 5000 * t.val + a.val = win1_3.index t (0 : Fin 2) * 5000 + 1 * a.val; rw [e0]; omega
  | ⟨1, _⟩ => show q.val = win1_3.index t (1 : Fin 2) * 32 + 1 * q.val; rw [e1]; omega

/-- An index of the result array is in point t's block iff each coordinate is in the block's range. -/
theorem mem_blk (t : Fin cfg1.N) (i : S100000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v17).slice (win1_3.rect t)).set ↔ _
  rw [View.set_slice_whole, Rect.mem_set_unit]
  exact Iff.rfl

/-- The result array after the region: the layer of the whole first operand (row r is written by point r / 5000). -/
theorem final (c : Dev nD) : (dat1 V c).arrAt 3 cfg1.N = layer V c :=
  (dat1 V c).arrAt_eq_of_cover 3 (layer V c) (fun t _ => flushed_eq V c t) fun i => by
    have hi0 : (i 0).val < 100000 := (i 0).isLt
    have hi1 : (i 1).val < 32 := (i 1).isLt
    have hN : cfg1.N = 20 := N_1
    refine ⟨⟨(i 0).val / 5000, by rw [hN]; omega⟩, flush1_3 _, ?_⟩
    rw [mem_blk]
    obtain ⟨-, -, -, -, -, -, e0, e1⟩ := idx_facts ⟨(i 0).val / 5000, by rw [hN]; omega⟩
    intro a
    match a with
    | ⟨0, _⟩ =>
      show win1_3.index _ (0 : Fin 2) * 5000 ≤ (i 0).val ∧ (i 0).val < win1_3.index _ (0 : Fin 2) * 5000 + 5000
      rw [e0]; show (i 0).val / 5000 * 5000 ≤ (i 0).val ∧ (i 0).val < (i 0).val / 5000 * 5000 + 5000; omega
    | ⟨1, _⟩ =>
      show win1_3.index _ (1 : Fin 2) * 32 ≤ (i 1).val ∧ (i 1).val < win1_3.index _ (1 : Fin 2) * 32 + 32
      rw [e1]; omega

end Cert.KernelIdeal.Layer1

end
-- ==== Proof.HostStretches.lean ====
/-
  The host operations of the idealized kernel program between and after its two kernels, read as functions.

  With A the sparse matrix given by its entries (row, column, value), the aggregation of an array h is A · h: gather
  the rows of h named by the columns, scale each by its value, add each into the row it names. The stretch between
  the kernels computes relu(A · h1) and makes the second bias a one-row array; the stretch after them computes
  A · h2. Each is read here from ANY buffer contents W it starts from, so that nothing about how W came to be is
  opened; an argument array no operation writes keeps its contents. Everything is stated for any float values: the
  operations are only composed, never evaluated.
-/
import proofs.«150892_j24644522345229_1_alg».proof.Proof.Gen.KernelIdeal.Launch
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable {F : FTy → Type} [FloatOps F]

/-- A column index below zero counts from the end. -/
def wrapCols (cl : (⟨S1600000, .i32⟩ : BufTy).Contents (Elt F)) : (⟨S1600000x1, .i32⟩ : BufTy).Contents (Elt F) :=
  broadcastInDim S1600000x1 ![0] bcast_S1600000_S1600000x1_0
    (select (cmpi .slt cl (broadcastInDim S1600000 ![] bcast_S_S1600000 (constantI S_ 32 0#32)))
      (addi cl (broadcastInDim S1600000 ![] bcast_S_S1600000 (constantI S_ 32 100000#32))) cl)

/-- A · h for h of 128 columns: gather, scale, scatter-add into zeros. -/
def agg128 (r cl : (⟨S1600000, .i32⟩ : BufTy).Contents (Elt F)) (v : (⟨S1600000, .f32⟩ : BufTy).Contents (Elt F)) (h : (⟨S100000x128, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 r)
    (mulf (broadcastInDim S1600000x128 ![0, 1] bcast_S1600000x1_S1600000x128_0_1 (broadcastInDim S1600000x1 ![0] bcast_S1600000_S1600000x1_0 v))
      (Host.gather gather_S100000x128_S1600000x1_S1600000x128_1_0_n_n_0_1_1128 h (wrapCols (F := F) cl)))

/-- A · h for h of 32 columns. -/
def agg32 (r cl : (⟨S1600000, .i32⟩ : BufTy).Contents (Elt F)) (v : (⟨S1600000, .f32⟩ : BufTy).Contents (Elt F)) (h : (⟨S100000x32, .f32⟩ : BufTy).Contents (Elt F)) : (⟨S100000x32, .f32⟩ : BufTy).Contents (Elt F) :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 r)
    (mulf (broadcastInDim S1600000x32 ![0, 1] bcast_S1600000x1_S1600000x32_0_1 (broadcastInDim S1600000x1 ![0] bcast_S1600000_S1600000x1_0 v))
      (Host.gather gather_S100000x32_S1600000x1_S1600000x32_1_0_n_n_0_1_132 h (wrapCols (F := F) cl)))

/-- The rectifier: the larger of each entry and zero. -/
def relu128 (h : (⟨S100000x128, .f32⟩ : BufTy).Contents (Elt F)) : (⟨S100000x128, .f32⟩ : BufTy).Contents (Elt F) :=
  maximumf h (broadcastInDim S100000x128 ![] bcast_S_S100000x128 (constant S_ .f32 0x00000000#32))

/-! ## The host stretches, over any contents W they start from -/

variable (W : Valuation τ sig (Elt F))

/-- The first stretch makes the first bias a one-row array. -/
theorem head_v0 : after (hostOps0 (F := F)) W (Proc.devRef .tc main_v0)
    = shapeCast S1x128 (W (Proc.devRef .tc main_arg5) : (⟨S128, .f32⟩ : BufTy).Contents (Elt F)) shapeCasts_S128_S1x128 := by
  after_results_simp <;> rfl
theorem head_arg0 : after (hostOps0 (F := F)) W (Proc.devRef .tc main_arg0) = W (Proc.devRef .tc main_arg0) := by after_results_simp <;> rfl
theorem head_arg1 : after (hostOps0 (F := F)) W (Proc.devRef .tc main_arg1) = W (Proc.devRef .tc main_arg1) := by after_results_simp <;> rfl
theorem head_arg2 : after (hostOps0 (F := F)) W (Proc.devRef .tc main_arg2) = W (Proc.devRef .tc main_arg2) := by after_results_simp <;> rfl
theorem head_arg3 : after (hostOps0 (F := F)) W (Proc.devRef .tc main_arg3) = W (Proc.devRef .tc main_arg3) := by after_results_simp <;> rfl
theorem head_arg4 : after (hostOps0 (F := F)) W (Proc.devRef .tc main_arg4) = W (Proc.devRef .tc main_arg4) := by after_results_simp <;> rfl
theorem head_arg6 : after (hostOps0 (F := F)) W (Proc.devRef .tc main_arg6) = W (Proc.devRef .tc main_arg6) := by after_results_simp <;> rfl
theorem head_arg7 : after (hostOps0 (F := F)) W (Proc.devRef .tc main_arg7) = W (Proc.devRef .tc main_arg7) := by after_results_simp <;> rfl

/-- The three middle stretches leave, in the second kernel's first operand, the rectified aggregation of the first
    kernel's array; -/
theorem mid_v15 : after (hostOps1_2 (F := F)) (after hostOps1_1 (after hostOps1 W)) (Proc.devRef .tc main_v15)
    = relu128 (agg128 (W (Proc.devRef .tc main_arg1)) (W (Proc.devRef .tc main_arg2)) (W (Proc.devRef .tc main_arg3)) (W (Proc.devRef .tc main_v1))) := by
  unfold relu128 agg128 wrapCols
  after_results_simp <;> rfl
/-- and the second bias as a one-row array. -/
theorem mid_v16 : after (hostOps1_2 (F := F)) (after hostOps1_1 (after hostOps1 W)) (Proc.devRef .tc main_v16)
    = shapeCast S1x32 (W (Proc.devRef .tc main_arg7) : (⟨S32, .f32⟩ : BufTy).Contents (Elt F)) shapeCasts_S32_S1x32 := by
  after_results_simp <;> rfl
theorem mid_arg1 : after (hostOps1_2 (F := F)) (after hostOps1_1 (after hostOps1 W)) (Proc.devRef .tc main_arg1) = W (Proc.devRef .tc main_arg1) := by after_results_simp <;> rfl
theorem mid_arg2 : after (hostOps1_2 (F := F)) (after hostOps1_1 (after hostOps1 W)) (Proc.devRef .tc main_arg2) = W (Proc.devRef .tc main_arg2) := by after_results_simp <;> rfl
theorem mid_arg3 : after (hostOps1_2 (F := F)) (after hostOps1_1 (after hostOps1 W)) (Proc.devRef .tc main_arg3) = W (Proc.devRef .tc main_arg3) := by after_results_simp <;> rfl
theorem mid_arg6 : after (hostOps1_2 (F := F)) (after hostOps1_1 (after hostOps1 W)) (Proc.devRef .tc main_arg6) = W (Proc.devRef .tc main_arg6) := by after_results_simp <;> rfl

/-- The last stretch aggregates the second kernel's array into the result. -/
theorem tail_v30 : after (hostOps2 (F := F)) W (Proc.devRef .tc main_v30)
    = agg32 (W (Proc.devRef .tc main_arg1)) (W (Proc.devRef .tc main_arg2)) (W (Proc.devRef .tc main_arg3)) (W (Proc.devRef .tc main_v17)) := by
  unfold agg32 wrapCols
  after_results_simp <;> rfl

end Cert.KernelIdeal.Whole

end
-- ==== Proof.KernelValue.lean ====
/-
  The contents the idealized kernel program leaves in its result buffer, as one function of the argument arrays.

  Reading the fold of buffer contents backwards from the end: the result is the aggregation A · h2 of the second linear
  kernel's array h2; h2 is the linear layer of relu(A · h1) with the second weights and bias; h1 is the linear layer of
  x with the first weights and bias; each bias reaches its kernel as a one-row array, a reshape of the bias vector; and
  no segment writes an argument, so every argument a later segment reads is what was launched.
-/
import proofs.«150892_j24644522345229_1_alg».proof.Proof.Layer0Value
import proofs.«150892_j24644522345229_1_alg».proof.Proof.Layer1Value
import proofs.«150892_j24644522345229_1_alg».proof.Proof.HostStretches

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo
open Idealize.ShloMosaic.ValueIdx Cert.LibLinearLayer

/-- The network: A · lin(relu(A · lin(x, W1, b1)), W2, b2). -/
def gcn (x : FVec Ideal S100000x256 .f32) (r cl : (⟨S1600000, .i32⟩ : BufTy).Contents (Elt Ideal))
    (v : (⟨S1600000, .f32⟩ : BufTy).Contents (Elt Ideal)) (W1 : FVec Ideal S256x128 .f32) (b1 : FVec Ideal S128 .f32)
    (W2 : FVec Ideal S128x32 .f32) (b2 : FVec Ideal S32 .f32) : FVec Ideal S100000x32 .f32 :=
  agg32 (F := Ideal) r cl v (lin (relu128 (F := Ideal) (agg128 (F := Ideal) r cl v (lin x W1 (fun q => b1 (ix1 q))))) W2 (fun q => b2 (ix1 q)))

/-- A bias vector made a one-row array reads, in its row at column q, the vector at q. -/
theorem row_of_bias {n : Nat} (b : FVec Ideal ⟨1, ![n]⟩ .f32) (h : (⟨1, ![n]⟩ : Shape).ShapeCasts ⟨2, ![1, n]⟩) :
    (fun q : Fin n => shapeCast ⟨2, ![1, n]⟩ b h (ix2 (0 : Fin 1) q)) = fun q => b (ix1 q) :=
  funext fun q => shapeCast_a_1a_apply b h 0 q

variable (m : (ℓ : Loc nD τ sig) → Buf (Elt Ideal) ℓ) (ρ : Dev nD → PrngReg)

/-! ## The arguments along the fold: no segment writes one -/

theorem W1_arg0 (c : Dev nD) : W1 m ρ c (Proc.devRef .tc main_arg0) = m ((c : Thread nD τ).loc main_arg0) := head_arg0 (W0 m ρ c)
theorem W1_arg4 (c : Dev nD) : W1 m ρ c (Proc.devRef .tc main_arg4) = m ((c : Thread nD τ).loc main_arg4) := head_arg4 (W0 m ρ c)
theorem W1_v0 (c : Dev nD) : W1 m ρ c (Proc.devRef .tc main_v0)
    = shapeCast S1x128 (m ((c : Thread nD τ).loc main_arg5) : FVec Ideal S128 .f32) shapeCasts_S128_S1x128 := head_v0 (W0 m ρ c)
theorem W2_arg1 (c : Dev nD) : W2 m ρ c (Proc.devRef .tc main_arg1) = m ((c : Thread nD τ).loc main_arg1) :=
  (W2_of_ne m ρ c main_arg1 (by decide)).trans (head_arg1 (W0 m ρ c))
theorem W2_arg2 (c : Dev nD) : W2 m ρ c (Proc.devRef .tc main_arg2) = m ((c : Thread nD τ).loc main_arg2) :=
  (W2_of_ne m ρ c main_arg2 (by decide)).trans (head_arg2 (W0 m ρ c))
theorem W2_arg3 (c : Dev nD) : W2 m ρ c (Proc.devRef .tc main_arg3) = m ((c : Thread nD τ).loc main_arg3) :=
  (W2_of_ne m ρ c main_arg3 (by decide)).trans (head_arg3 (W0 m ρ c))
theorem W2_arg6 (c : Dev nD) : W2 m ρ c (Proc.devRef .tc main_arg6) = m ((c : Thread nD τ).loc main_arg6) :=
  (W2_of_ne m ρ c main_arg6 (by decide)).trans (head_arg6 (W0 m ρ c))
theorem W2_arg7 (c : Dev nD) : W2 m ρ c (Proc.devRef .tc main_arg7) = m ((c : Thread nD τ).loc main_arg7) :=
  (W2_of_ne m ρ c main_arg7 (by decide)).trans (head_arg7 (W0 m ρ c))
theorem W5_arg1 (c : Dev nD) : W5 m ρ c (Proc.devRef .tc main_arg1) = m ((c : Thread nD τ).loc main_arg1) :=
  (mid_arg1 (W2 m ρ c)).trans (W2_arg1 m ρ c)
theorem W5_arg2 (c : Dev nD) : W5 m ρ c (Proc.devRef .tc main_arg2) = m ((c : Thread nD τ).loc main_arg2) :=
  (mid_arg2 (W2 m ρ c)).trans (W2_arg2 m ρ c)
theorem W5_arg3 (c : Dev nD) : W5 m ρ c (Proc.devRef .tc main_arg3) = m ((c : Thread nD τ).loc main_arg3) :=
  (mid_arg3 (W2 m ρ c)).trans (W2_arg3 m ρ c)
theorem W5_arg6 (c : Dev nD) : W5 m ρ c (Proc.devRef .tc main_arg6) = m ((c : Thread nD τ).loc main_arg6) :=
  (mid_arg6 (W2 m ρ c)).trans (W2_arg6 m ρ c)
theorem W6_arg1 (c : Dev nD) : W6 m ρ c (Proc.devRef .tc main_arg1) = m ((c : Thread nD τ).loc main_arg1) :=
  (W6_of_ne m ρ c main_arg1 (by decide)).trans (W5_arg1 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W6_arg3 (c : Dev nD) : W6 m ρ c (Proc.devRef .tc main_arg3) = m ((c : Thread nD τ).loc main_arg3) :=
  (W6_of_ne m ρ c main_arg3 (by decide)).trans (W5_arg3 m ρ c)

/-! ## The two kernels' arrays -/

/-- The first kernel's array after its region: the first linear layer of the launched x, W1, b1. -/
theorem h1_eq (c : Dev nD) : W2 m ρ c (Proc.devRef .tc main_v1)
    = lin (m ((c : Thread nD τ).loc main_arg0) : FVec Ideal S100000x256 .f32) (m ((c : Thread nD τ).loc main_arg4) : FVec Ideal S256x128 .f32)
        (fun q => (m ((c : Thread nD τ).loc main_arg5) : FVec Ideal S128 .f32) (ix1 q)) := by
  refine (W2_arr m ρ c 3).trans ((Layer0.final (V1 m ρ) c).trans ?_)
  unfold Layer0.layer
  show lin (W1 m ρ c (Proc.devRef .tc main_arg0)) (W1 m ρ c (Proc.devRef .tc main_arg4))
      (fun q => (W1 m ρ c (Proc.devRef .tc main_v0) : FVec Ideal S1x128 .f32) (ix2 (0 : Fin 1) q)) = _
  rw [W1_arg0 m ρ c, W1_arg4 m ρ c, W1_v0 m ρ c]
  exact congrArg _ (row_of_bias _ _)

/-- What the second kernel is given as its first operand: the rectified aggregation of the first kernel's array. -/
theorem W5_v15 (c : Dev nD) : W5 m ρ c (Proc.devRef .tc main_v15)
    = relu128 (F := Ideal) (agg128 (F := Ideal) (m ((c : Thread nD τ).loc main_arg1)) (m ((c : Thread nD τ).loc main_arg2)) (m ((c : Thread nD τ).loc main_arg3)) (W2 m ρ c (Proc.devRef .tc main_v1))) := by
  refine (mid_v15 (W2 m ρ c)).trans ?_
  rw [W2_arg1 m ρ c, W2_arg2 m ρ c, W2_arg3 m ρ c]
theorem W5_v16 (c : Dev nD) : W5 m ρ c (Proc.devRef .tc main_v16)
    = shapeCast S1x32 (m ((c : Thread nD τ).loc main_arg7) : FVec Ideal S32 .f32) shapeCasts_S32_S1x32 := by
  refine (mid_v16 (W2 m ρ c)).trans ?_
  rw [W2_arg7 m ρ c]

/-- The second kernel's array after its region: the second linear layer of that operand. -/
theorem h2_eq (c : Dev nD) : W6 m ρ c (Proc.devRef .tc main_v17)
    = lin (relu128 (F := Ideal) (agg128 (F := Ideal) (m ((c : Thread nD τ).loc main_arg1)) (m ((c : Thread nD τ).loc main_arg2)) (m ((c : Thread nD τ).loc main_arg3)) (W2 m ρ c (Proc.devRef .tc main_v1))))
        (m ((c : Thread nD τ).loc main_arg6) : FVec Ideal S128x32 .f32) (fun q => (m ((c : Thread nD τ).loc main_arg7) : FVec Ideal S32 .f32) (ix1 q)) := by
  refine (W6_arr m ρ c 3).trans ((Layer1.final (V5 m ρ) c).trans ?_)
  unfold Layer1.layer
  show lin (W5 m ρ c (Proc.devRef .tc main_v15)) (W5 m ρ c (Proc.devRef .tc main_arg6))
      (fun q => (W5 m ρ c (Proc.devRef .tc main_v16) : FVec Ideal S1x32 .f32) (ix2 (0 : Fin 1) q)) = _
  rw [W5_v15 m ρ c, W5_arg6 m ρ c, W5_v16 m ρ c]
  exact congrArg _ (row_of_bias _ _)

/-- THE RESULT: what the program leaves in its result buffer is the network of the launched arguments. -/
theorem result_eq (c : Dev nD) : W7 m ρ c (Proc.devRef .tc main_v30)
    = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (tail_v30 (W6 m ρ c)).trans ?_
  rw [W6_arg1 m ρ c, W6_arg2 m ρ c, W6_arg3 m ρ c, h2_eq m ρ c, h1_eq m ρ c]
  rfl

end Cert.KernelIdeal.Whole

end
-- ==== Proof.Bridge.lean ====
/-
  The network is one function, whichever program's vocabulary spells it.

  The two printed programs each declare their own names for the same shapes, the same gather and scatter dimension
  records and the same side conditions. The network written over the reference's names and the network written over
  the kernel program's names apply the same operations to the same arguments, so they are equal term by term.
-/
import proofs.«150892_j24644522345229_1_alg».proof.Proof.Network
import proofs.«150892_j24644522345229_1_alg».proof.Proof.KernelValue

noncomputable section

namespace Cert.Network

open Idealize.ShloMosaic

theorem gcn_same (x : FVec Ideal Cert.ReferenceIdeal.S100000x256 .f32)
    (r cl : (⟨Cert.ReferenceIdeal.S1600000, .i32⟩ : BufTy).Contents (Elt Ideal))
    (v : (⟨Cert.ReferenceIdeal.S1600000, .f32⟩ : BufTy).Contents (Elt Ideal))
    (W1 : FVec Ideal Cert.ReferenceIdeal.S256x128 .f32) (b1 : FVec Ideal Cert.ReferenceIdeal.S128 .f32)
    (W2 : FVec Ideal Cert.ReferenceIdeal.S128x32 .f32) (b2 : FVec Ideal Cert.ReferenceIdeal.S32 .f32) :
    Cert.Network.gcn x r cl v W1 b1 W2 b2 = Cert.KernelIdeal.Whole.gcn x r cl v W1 b1 W2 b2 := by
  unfold Cert.Network.gcn Cert.KernelIdeal.Whole.gcn
  unfold Cert.Network.agg32 Cert.Network.agg128 Cert.Network.relu128 Cert.Network.wrapCols
  unfold Cert.KernelIdeal.Whole.agg32 Cert.KernelIdeal.Whole.agg128 Cert.KernelIdeal.Whole.relu128 Cert.KernelIdeal.Whole.wrapCols
  rfl

end Cert.Network

end
-- ==== Proof.lean ====
/-
  A two-layer graph convolution, kernel against reference, at the ideal values.

  Both programs compute  A · lin(relu(A · lin(x, W1, b1)), W2, b2),  where A is the sparse matrix given by its entries
  (row, column, value), A · h gathers the rows of h named by the columns, scales each by its value and adds it into the
  row it names, and lin(x, W, b) has at row a and column q the entry (∑ c, x(a, c) · W(c, q)) + b(q).
  The kernel program computes each lin with a Pallas kernel over twenty blocks of 5000 rows: the block and the weights
  rounded to bf16 — which changes nothing at the ideal values —, multiplied into a zero accumulator, the one-row bias
  added; the blocks tile the rows, so the array ends holding lin of the whole operand. The reference computes each lin
  as the host's matrix product plus the bias broadcast over the rows. The aggregations and the rectifier are the same
  host operations in both programs and are never opened. No law of arithmetic beyond reading both spellings of lin as
  the same sums is needed, so the precondition (finite inputs) is not used.
  The three frames: the two kernel programs' are their generated frames; the reference's is its generated run with the
  result dropped. The idealization rewrote no operation, so there is nothing to preserve.
-/
import proofs.«150892_j24644522345229_1_alg».proof.Defs
import proofs.«150892_j24644522345229_1_alg».proof.Proof.Gen.Kernel
import proofs.«150892_j24644522345229_1_alg».proof.Proof.Gen.Kernel.Skeleton
import proofs.«150892_j24644522345229_1_alg».proof.Proof.Gen.Kernel.Launch
import proofs.«150892_j24644522345229_1_alg».proof.Proof.Gen.Kernel.Points
import proofs.«150892_j24644522345229_1_alg».proof.Proof.Gen.Kernel.Frame
import proofs.«150892_j24644522345229_1_alg».proof.Proof.Gen.KernelIdeal
import proofs.«150892_j24644522345229_1_alg».proof.Proof.Gen.KernelIdeal.Skeleton
import proofs.«150892_j24644522345229_1_alg».proof.Proof.Gen.KernelIdeal.Launch
import proofs.«150892_j24644522345229_1_alg».proof.Proof.Gen.KernelIdeal.Points
import proofs.«150892_j24644522345229_1_alg».proof.Proof.Gen.KernelIdeal.Frame
import proofs.«150892_j24644522345229_1_alg».proof.Proof.Gen.ReferenceIdeal
import proofs.«150892_j24644522345229_1_alg».proof.Proof.Gen.ReferenceIdeal.Run
import proofs.«150892_j24644522345229_1_alg».proof.Proof.Gen.Pre_finite_inputs
import proofs.«150892_j24644522345229_1_alg».proof.Proof.KernelRun
import proofs.«150892_j24644522345229_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged: its generated run, the result's value forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the network of the launched arguments in their result: the kernel program by reading the
    fold of its buffer contents, the reference by reading its run's term; the arguments agree, so the results do. -/
theorem algebraic : Cert.algebraic_KernelIdeal_ReferenceIdeal := by
  intro m ρ m' ρ' _ hagree
  refine ⟨fun c => Cert.KernelIdeal.Whole.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.result_eq m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.Network.ref_eq, Cert.Network.gcn_same, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
